-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x32 : Shape := ⟨2, ![4096, 32]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4096x4096 32) (main_arg2 : FVec F S4096x32 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096x32 : Shape := ⟨2, ![4096, 32]⟩
abbrev S4096 : Shape := ⟨1, ![4096]⟩
abbrev S1x4096 : Shape := ⟨2, ![1, 4096]⟩
abbrev S1024x4096 : Shape := ⟨2, ![1024, 4096]⟩
abbrev S128x4096 : Shape := ⟨2, ![128, 4096]⟩
abbrev S128x32 : Shape := ⟨2, ![128, 32]⟩
abbrev S1x128 : Shape := ⟨2, ![1, 128]⟩
abbrev S1024x128 : Shape := ⟨2, ![1024, 128]⟩
abbrev S128x32x128 : Shape := ⟨3, ![128, 32, 128]⟩
abbrev S128x32x1 : Shape := ⟨3, ![128, 32, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x32, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S1024x4096, .f32⟩
  | .local _ .vmem, ⟨1, _⟩ => ⟨S128x4096, .i32⟩
  | .local _ .vmem, ⟨2, _⟩ => ⟨S128x4096, .i32⟩
  | .local _ .vmem, ⟨3, _⟩ => ⟨S128x32, .f32⟩
  | .local _ .vmem, ⟨4, _⟩ => ⟨S128x32, .f32⟩
  | .local _ .vmem, ⟨5, _⟩ => ⟨S1x128, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  inb_S128x32_S128x32_0_0 : ∀ a, (![0, 0] : Fin 2 → Nat) a + S128x32.size a ≤ S128x32.size a
  h_S128x32 : 0 < S128x32.numel
  shapeCasts_S128x4096_S128x32x128 : S128x4096.ShapeCasts S128x32x128
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  dot_S1024x4096_S128x4096_S1024x128_1_1_0_0_n_n_wf : DotDims.WF S1024x4096 S128x4096 S1024x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .i32 = 32 ∨ (Rect.block (s := S4096x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S4096x32.size a
  hwx0_2 : ∀ i : grid0.Coords, EltTy.bits .f32 = 32 ∨ (Rect.block (s := S4096x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x4096.size a
  hwx0_3 : ∀ i : grid0.Coords, EltTy.bits .f32 = 32 ∨ (Rect.block (s := S1x4096) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x4096.size a
  hwx0_4 : ∀ i : grid0.Coords, EltTy.bits .f32 = 32 ∨ (Rect.block (s := S8192x4096) S1024x128.size (cc0_transform_4 i) (hinb0_4 i)).WholeWords (EltTy.packing .f32)

variable [Facts₀]

def dot_S1024x4096_S128x4096_S1024x128_1_1_0_0_n_n : DotDims S1024x4096 S128x4096 S1024x128 where
  lhsContracting := [1]
  rhsContracting := [1]
  lhsNonContracting := [0]
  rhsNonContracting := [0]
  lhsBatch := []
  rhsBatch := []
  wf := dot_S1024x4096_S128x4096_S1024x128_1_1_0_0_n_n_wf

abbrev win0_0 : Pipeline.Window sig grid0 :=
  Pipeline.Window.ofSpec (Memref.whole main_arg0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x32 : Shape := ⟨2, ![4096, 32]⟩
abbrev S4096 : Shape := ⟨1, ![4096]⟩
abbrev S4096x32x128 : Shape := ⟨3, ![4096, 32, 128]⟩
abbrev S4096x32x1 : Shape := ⟨3, ![4096, 32, 1]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x32, .f32⟩
  | .hbm, ⟨3, _⟩ => ⟨S4096, .f32⟩
  | .hbm, ⟨4, _⟩ => ⟨S4096x32x128, .i32⟩
  | .hbm, ⟨5, _⟩ => ⟨S4096x32x128, .f32⟩
  | .hbm, ⟨6, _⟩ => ⟨S4096x32x1, .f32⟩
  | .hbm, ⟨7, _⟩ => ⟨S4096x32x128, .f32⟩
  | .hbm, ⟨8, _⟩ => ⟨S4096x32x128, .f32⟩
  | .hbm, ⟨9, _⟩ => ⟨S4096x4096, .f32⟩
  | .hbm, ⟨10, _⟩ => ⟨S4096x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.QuantLinear.lean ====
/-
  The layer this certificate is about, as ONE function of the four argument arrays.

  A weight matrix of 4096 output features by 4096 input features is stored as signed integer codes `q[n, k]`
  together with one scale per output feature and per GROUP of 128 consecutive input features, `s[n, k / 128]`.
  The dequantised weight is `w[n, k] = q[n, k] · s[n, k / 128]` (the integer read exactly, as a real number), and
  the layer maps 8192 rows `x[r, ·]` to

      y[r, n] = Σ_{k < 4096} x[r, k] · w[n, k]  +  b[n].

  Everything is read on the extended reals. Both programs of this certificate compute exactly this expression,
  summand by summand and in this order of the factors, so no law of arithmetic beyond reading each program's
  operations at an index is needed to join them; in particular nothing here asks the inputs to be finite.
-/
import Idealize.ShloMosaic.PureOps.Ideal
import Idealize.ShloMosaic.Lib.ValueIdx

noncomputable section

open scoped BigOperators

namespace Cert.QuantLinear

open Idealize.ShloMosaic Idealize.ShloMosaic.ValueIdx

/-- The quantisation group of input feature `k`: groups are runs of 128 consecutive features. -/
def group (k : Fin 4096) : Fin 32 := ⟨k.val / 128, by have := k.isLt; omega⟩

/-- The position of input feature `k` inside its group. -/
def lane (k : Fin 4096) : Fin 128 := ⟨k.val % 128, by omega⟩

/-- A feature is its group's first feature plus its position in the group. -/
theorem group_lane (k : Fin 4096) : (group k).val * 128 + (lane k).val = k.val := by
  show k.val / 128 * 128 + k.val % 128 = k.val
  omega

/-- The dequantised weight of output feature `n` at input feature `k`: the integer code, read exactly, times the
    scale of `k`'s group. -/
def weight (q : (⟨2, ![4096, 4096]⟩ : Shape).Idx → BitVec 32) (s : (⟨2, ![4096, 32]⟩ : Shape).Idx → EReal)
    (n k : Fin 4096) : EReal :=
  (((q (ix2 n k)).toInt : ℝ) : EReal) * s (ix2 n (group k))

/-- One entry of the layer's result: row `r` of the input against the dequantised weights of output feature `n`,
    plus that feature's bias. -/
def linearAt (x : (⟨2, ![8192, 4096]⟩ : Shape).Idx → EReal) (q : (⟨2, ![4096, 4096]⟩ : Shape).Idx → BitVec 32)
    (s : (⟨2, ![4096, 32]⟩ : Shape).Idx → EReal) (b : (⟨1, ![4096]⟩ : Shape).Idx → EReal)
    (r : Fin 8192) (n : Fin 4096) : EReal :=
  (∑ k : Fin 4096, x (ix2 r k) * weight q s n k) + b (ix1 n)

/-- The layer's result as one array. -/
def linear (x : (⟨2, ![8192, 4096]⟩ : Shape).Idx → EReal) (q : (⟨2, ![4096, 4096]⟩ : Shape).Idx → BitVec 32)
    (s : (⟨2, ![4096, 32]⟩ : Shape).Idx → EReal) (b : (⟨1, ![4096]⟩ : Shape).Idx → EReal) :
    (⟨2, ![8192, 4096]⟩ : Shape).Idx → EReal :=
  fun i => linearAt x q s b (i 0) (i 1)

theorem linear_apply (x : (⟨2, ![8192, 4096]⟩ : Shape).Idx → EReal) (q : (⟨2, ![4096, 4096]⟩ : Shape).Idx → BitVec 32)
    (s : (⟨2, ![4096, 32]⟩ : Shape).Idx → EReal) (b : (⟨1, ![4096]⟩ : Shape).Idx → EReal) (r : Fin 8192) (n : Fin 4096) :
    linear x q s b (ix2 r n) = linearAt x q s b r n := rfl

end Cert.QuantLinear

end
-- ==== Proof.RefLinear.lean ====
/-
  The reference program computes the layer of QuantLinear.lean.

  Its eleven host operations, read at an index one after the other: the integer codes re-laid as
  [4096, 32, 128] (feature `k` of row `n` sits at group `k / 128`, position `k % 128`), converted exactly,
  multiplied by the scale of their group (the scales broadcast along the positions of a group), re-laid back to
  [4096, 4096] and transposed — entry `(k, n)` of the transposed matrix is the dequantised weight `w[n, k]` —;
  the matrix product of the input with it, a sum over the 4096 input features; and the bias, broadcast over the
  rows, added. That is `linearAt` entry by entry.
-/
import proofs.«147683_j16028817949314_1_alg».proof.Proof.Gen.ReferenceIdeal.Read
import proofs.«147683_j16028817949314_1_alg».proof.Proof.QuantLinear

noncomputable section

open scoped BigOperators

namespace Cert.ReferenceIdeal.RefLinear

open Cert.ReferenceIdeal Cert.ReferenceIdeal.Gen Cert.ReferenceIdeal.Read
open Idealize.ShloMosaic Idealize.ShloMosaic.ValueIdx Cert.QuantLinear

/-- Entry `(k, n)` of the transposed dequantised matrix is the weight of output feature `n` at input feature `k`:
    through the transposition, the two re-layings and the broadcast of the scales the code read is `q[n, k]` and
    the scale read is that of `k`'s group. -/
theorem transposed_weight (x1 : (⟨S4096x4096, .i32⟩ : BufTy).Contents (Elt Ideal))
    (x2 : (⟨S4096x32, .f32⟩ : BufTy).Contents (Elt Ideal)) (n k : Fin 4096) :
    val_main_v6 (F := Ideal) x1 x2 (ix2 k n) = weight x1 x2 n k := by
  have hn : n.val < 4096 := n.isLt
  have hk : k.val < 4096 := k.isLt
  have ecode : idx_main_v0 (idx_main_v5 (idx_main_v6 (ix2 k n))) = ix2 n k := funext fun a => Fin.ext (by
    match a with
    | ⟨0, _⟩ =>
      show (((n.val * 4096 + k.val) / 4096 * 32 + (n.val * 4096 + k.val) / 128 % 32) * 128 + (n.val * 4096 + k.val) % 128) / 4096 = n.val
      omega
    | ⟨1, _⟩ =>
      show (((n.val * 4096 + k.val) / 4096 * 32 + (n.val * 4096 + k.val) / 128 % 32) * 128 + (n.val * 4096 + k.val) % 128) % 4096 = k.val
      omega)
  have escale : idx_main_v2 (idx_main_v3 (idx_main_v5 (idx_main_v6 (ix2 k n)))) = ix2 n (group k) := funext fun a => Fin.ext (by
    match a with
    | ⟨0, _⟩ =>
      show (n.val * 4096 + k.val) / 4096 = n.val
      omega
    | ⟨1, _⟩ =>
      show (n.val * 4096 + k.val) / 128 % 32 = k.val / 128
      omega)
  rw [val_main_v6_apply, val_main_v5_apply, val_main_v4_apply, val_main_v1_apply, val_main_v0_apply, val_main_v3_apply,
    val_main_v2_apply, ecode, escale]
  rfl

/-- THE REFERENCE'S RESULT IS THE LAYER: entry `(r, n)` is the sum over the input features of `x[r, k]` times the
    transposed matrix's entry `(k, n)`, plus the bias broadcast over the rows read at `n`. -/
theorem result_eq (x0 : (⟨S8192x4096, .f32⟩ : BufTy).Contents (Elt Ideal)) (x1 : (⟨S4096x4096, .i32⟩ : BufTy).Contents (Elt Ideal))
    (x2 : (⟨S4096x32, .f32⟩ : BufTy).Contents (Elt Ideal)) (x3 : (⟨S4096, .f32⟩ : BufTy).Contents (Elt Ideal)) :
    val_main_v10 (F := Ideal) x0 x1 x2 x3 = linear x0 x1 x2 x3 := by
  funext i
  obtain ⟨r, n, rfl⟩ : ∃ (r : Fin 8192) (n : Fin 4096), i = ix2 r n := ⟨i 0, i 1, eq_ix2 i⟩
  have ebias : idx_main_v8 (idx_main_v9 (ix2 r n)) = ix1 n := funext fun a => Fin.ext (by
    match a with
    | ⟨0, _⟩ => rfl)
  rw [linear_apply, val_main_v10_apply, val_main_v7_apply, val_main_v9_apply, val_main_v8_apply, ebias]
  show (∑ k : Fin 4096, x0 (lidx_main_v7 (ix2 r n) k) * val_main_v6 (F := Ideal) x1 x2 (ridx_main_v7 (ix2 r n) k)) + x3 (ix1 n)
    = (∑ k : Fin 4096, x0 (ix2 r k) * weight x1 x2 n k) + x3 (ix1 n)
  refine congrArg (· + x3 (ix1 n)) (Finset.sum_congr rfl fun k _ => ?_)
  have el : lidx_main_v7 (ix2 r n) k = ix2 r k := funext fun a => Fin.ext (by
    match a with
    | ⟨0, _⟩ => rfl
    | ⟨1, _⟩ => rfl)
  have er : ridx_main_v7 (ix2 r n) k = ix2 k n := funext fun a => Fin.ext (by
    match a with
    | ⟨0, _⟩ => rfl
    | ⟨1, _⟩ => rfl)
  rw [el, er, transposed_weight]

end Cert.ReferenceIdeal.RefLinear

end
-- ==== Proof.BodyLinear.lean ====
/-
  What the kernel's body stores, read at one entry of its output block.

  At a grid point the body holds a block of 1024 rows of the input (all 4096 features), the codes and the scales of a
  block of 128 output features (all 4096 features, all 32 groups), and those 128 features' biases as one row. It
  dequantises the weight block — the codes re-laid by groups of 128, converted exactly, times the scales broadcast
  along each group, re-laid back —, contracts the rows with it over the 4096 features into a zero accumulator, and
  adds the bias row broadcast down the rows. Entry `(p, c)` of the stored [1024, 128] block is therefore

      Σ_{k < 4096} x[p, k] · (q[c, k] · s[c, k / 128])  +  b[0, c]

  of the blocks: the layer of QuantLinear.lean, on the block. The changes of float format in the body are the identity
  on the extended reals.
-/
import proofs.«147683_j16028817949314_1_alg».proof.Proof.Gen.KernelIdeal.Skeleton
import proofs.«147683_j16028817949314_1_alg».proof.Proof.QuantLinear
import Idealize.ShloMosaic.Lib.Pipeline.Value
import Idealize.ShloMosaic.Lib.ValueIdx
import Idealize.ShloMosaic.PureOps.Ideal.Laws

noncomputable section

open scoped BigOperators

namespace Cert.KernelIdeal.BodyLinear

open Cert.KernelIdeal Cert.KernelIdeal.Gen
open Idealize.ShloMosaic Idealize.ShloMosaic.ValueIdx Cert.QuantLinear

/-! ## The dequantised weight block -/

/-- Entry `(c, k)` of the dequantised block: feature `k` of row `c` sits at group `k / 128`, position `k % 128` of the
    re-laid codes, and the broadcast scale there is the scale of row `c` and that group. -/
theorem dequantised_apply (x1 : IVec S128x4096 32) (x2 : FVec Ideal S128x32 .bf16)
    (h1 : S128x4096.ShapeCasts S128x32x128) (h2 : S128x32.ShapeCasts S128x32x1)
    (h3 : S128x32x1.Broadcasts S128x32x128) (h4 : S128x32x128.ShapeCasts S128x4096) (c : Fin 128) (k : Fin 4096) :
    shapeCast S128x4096 (mulf (shapeCast S128x32x128 (sitofp (F := Ideal) .bf16 x1) h1)
        (broadcastTo S128x32x128 (shapeCast S128x32x1 x2 h2) h3)) h4 (ix2 c k)
      = (((x1 (ix2 c k)).toInt : ℝ) : EReal) * x2 (ix2 c (group k)) := by
  have hk : k.val < 4096 := k.isLt
  have hc : c.val < 128 := c.isLt
  have hgl := group_lane k
  refine (shapeCast_apply _ h4 (ix2 c k) (ix3 c (group k) (lane k)) (by
    rewrite [Shape.rowMajor_val_three, Shape.rowMajor_val_two]
    show (c.val * 32 + (group k).val) * 128 + (lane k).val = c.val * 4096 + k.val
    omega)).trans ?_
  rw [mulf_apply]
  refine congrArg₂ (· * ·) ?_ ?_
  · refine (shapeCast_apply _ h1 (ix3 c (group k) (lane k)) (ix2 c k) (by
      rewrite [Shape.rowMajor_val_three, Shape.rowMajor_val_two]
      show c.val * 4096 + k.val = (c.val * 32 + (group k).val) * 128 + (lane k).val
      omega)).trans ?_
    rfl
  · refine (broadcastTo_apply _ h3 (ix3 c (group k) (lane k)) (ix3 c (group k) (0 : Fin 1)) (fun a => by
      match a with
      | ⟨0, _⟩ => show c.val = if (128 : Nat) = 1 then 0 else c.val; rw [if_neg (by decide)]
      | ⟨1, _⟩ => show (group k).val = if (32 : Nat) = 1 then 0 else (group k).val; rw [if_neg (by decide)]
      | ⟨2, _⟩ => show 0 = if (1 : Nat) = 1 then 0 else (lane k).val; rw [if_pos rfl])).trans ?_
    exact shapeCast_apply _ h2 (ix3 c (group k) (0 : Fin 1)) (ix2 c (group k)) (by
      rewrite [Shape.rowMajor_val_three, Shape.rowMajor_val_two]
      show c.val * 32 + (group k).val = (c.val * 32 + (group k).val) * 1 + 0
      omega)

/-! ## The contraction over the features -/

/-- The left operand of the contraction is read at the output's row and the contracted feature … -/
theorem lhs_row (j : S1024x128.Idx) (q : dot_S1024x4096_S128x4096_S1024x128_1_1_0_0_n_n.contr.Idx) :
    (dot_S1024x4096_S128x4096_S1024x128_1_1_0_0_n_n.lhsIdx j q 0).val = (j 0).val := by
  unfold DotDims.lhsIdx
  rw [dif_neg (show ¬(0 : Fin S1024x4096.rank) ∈ dot_S1024x4096_S128x4096_S1024x128_1_1_0_0_n_n.lhsBatch by decide),
    dif_pos (show (0 : Fin S1024x4096.rank) ∈ dot_S1024x4096_S128x4096_S1024x128_1_1_0_0_n_n.lhsNonContracting by decide)]
  rfl
theorem lhs_feature (j : S1024x128.Idx) (q : dot_S1024x4096_S128x4096_S1024x128_1_1_0_0_n_n.contr.Idx) :
    (dot_S1024x4096_S128x4096_S1024x128_1_1_0_0_n_n.lhsIdx j q 1).val = (q ⟨0, by decide⟩).val :=
  dot_S1024x4096_S128x4096_S1024x128_1_1_0_0_n_n.lhsIdx_val_of_single rfl j q
/-- … and the right operand, contracted along ITS second axis too, at the output's column and the contracted feature. -/
theorem rhs_row (j : S1024x128.Idx) (q : dot_S1024x4096_S128x4096_S1024x128_1_1_0_0_n_n.contr.Idx) :
    (dot_S1024x4096_S128x4096_S1024x128_1_1_0_0_n_n.rhsIdx j q 0).val = (j 1).val := by
  unfold DotDims.rhsIdx
  rw [dif_neg (show ¬(0 : Fin S128x4096.rank) ∈ dot_S1024x4096_S128x4096_S1024x128_1_1_0_0_n_n.rhsBatch by decide),
    dif_pos (show (0 : Fin S128x4096.rank) ∈ dot_S1024x4096_S128x4096_S1024x128_1_1_0_0_n_n.rhsNonContracting by decide)]
  rfl
theorem rhs_feature (j : S1024x128.Idx) (q : dot_S1024x4096_S128x4096_S1024x128_1_1_0_0_n_n.contr.Idx) :
    (dot_S1024x4096_S128x4096_S1024x128_1_1_0_0_n_n.rhsIdx j q 1).val = (q ⟨0, by decide⟩).val :=
  dot_S1024x4096_S128x4096_S1024x128_1_1_0_0_n_n.rhsIdx_val_of_single rfl j q

/-- The matrix product into the zero accumulator, at entry `(p, c)`: the sum over the 4096 features of row `p` of the
    left operand times row `c` of the right one. -/
theorem contraction_apply (l : FVec Ideal S1024x4096 .bf16) (w : FVec Ideal S128x4096 .bf16) (p : Fin 1024) (c : Fin 128) :
    matmul dot_S1024x4096_S128x4096_S1024x128_1_1_0_0_n_n none l w (constant S1024x128 .f32 0x00000000#32) (ix2 p c)
      = ∑ k : Fin 4096, l (ix2 p k) * w (ix2 c k) := by
  refine (Ideal.matmul_constant_zero_apply dot_S1024x4096_S128x4096_S1024x128_1_1_0_0_n_n none l w (ix2 p c)).trans ?_
  rw [← Equiv.sum_comp (contrEquiv1 dot_S1024x4096_S128x4096_S1024x128_1_1_0_0_n_n 4096 rfl rfl).symm]
  refine Finset.sum_congr rfl fun k _ => ?_
  have hk := contrEquiv1_symm_val dot_S1024x4096_S128x4096_S1024x128_1_1_0_0_n_n 4096 rfl rfl k
  have el : dot_S1024x4096_S128x4096_S1024x128_1_1_0_0_n_n.lhsIdx (ix2 p c)
      ((contrEquiv1 dot_S1024x4096_S128x4096_S1024x128_1_1_0_0_n_n 4096 rfl rfl).symm k) = ix2 p k := funext fun a => Fin.ext (by
    match a with
    | ⟨0, _⟩ => exact lhs_row _ _
    | ⟨1, _⟩ => exact (lhs_feature _ _).trans hk)
  have er : dot_S1024x4096_S128x4096_S1024x128_1_1_0_0_n_n.rhsIdx (ix2 p c)
      ((contrEquiv1 dot_S1024x4096_S128x4096_S1024x128_1_1_0_0_n_n 4096 rfl rfl).symm k) = ix2 c k := funext fun a => Fin.ext (by
    match a with
    | ⟨0, _⟩ => exact rhs_row _ _
    | ⟨1, _⟩ => exact (rhs_feature _ _).trans hk)
  rw [el, er]

/-! ## The bias row, broadcast down the rows -/

/-- The one-row bias block broadcast to the output block reads the row at the column. -/
theorem bias_apply (x3 : FVec Ideal S1x128 .f32) (h5 : S1x128.ShapeCasts S1x128) (h6 : S1x128.Broadcasts S1024x128)
    (p : Fin 1024) (c : Fin 128) :
    broadcastTo S1024x128 (shapeCast S1x128 x3 h5) h6 (ix2 p c) = x3 (ix2 (0 : Fin 1) c) := by
  rw [shapeCast_self]
  exact broadcastTo_apply _ h6 (ix2 p c) (ix2 (0 : Fin 1) c) (fun a => by
    match a with
    | ⟨0, _⟩ => show 0 = if (1 : Nat) = 1 then 0 else p.val; rw [if_pos rfl]
    | ⟨1, _⟩ => show c.val = if (128 : Nat) = 1 then 0 else c.val; rw [if_neg (by decide)])

/-! ## The stored block -/

/-- THE BODY'S STORE AT ENTRY `(p, c)`: the layer's expression on the blocks. -/
theorem payload_apply (x0 : Vec Ideal S1024x4096 .f32) (x1 : Vec Ideal S128x4096 .i32) (x2 : Vec Ideal S128x32 .f32)
    (x3 : Vec Ideal S1x128 .f32) (p : Fin 1024) (c : Fin 128) :
    k0_pay1 (F := Ideal) x0 x1 x2 x3 (ix2 p c)
      = (∑ k : Fin 4096, x0 (ix2 p k) * ((((x1 (ix2 c k)).toInt : ℝ) : EReal) * x2 (ix2 c (group k)))) + x3 (ix2 (0 : Fin 1) c) := by
  unfold k0_pay1
  rw [addf_apply]
  refine congrArg₂ (· + ·) ?_ (bias_apply x3 _ _ p c)
  refine (contraction_apply _ _ p c).trans ?_
  refine Finset.sum_congr rfl fun k _ => ?_
  refine congrArg₂ (· * ·) rfl ?_
  exact dequantised_apply x1 x2 _ _ _ _ c k

/-- THE STORED BLOCK IS A BLOCK OF THE LAYER: if row `p` of the loaded input block is row `r` of the input array, and row
    `c` of the loaded codes, of the loaded scales and entry `c` of the loaded bias row are those of output feature `n`,
    then entry `(p, c)` of the stored block is the layer's entry `(r, n)`. -/
theorem payload_of_blocks
    (A0 : (⟨2, ![8192, 4096]⟩ : Shape).Idx → EReal) (A1 : (⟨2, ![4096, 4096]⟩ : Shape).Idx → BitVec 32)
    (A2 : (⟨2, ![4096, 32]⟩ : Shape).Idx → EReal) (b : (⟨1, ![4096]⟩ : Shape).Idx → EReal)
    (x0 : Vec Ideal S1024x4096 .f32) (x1 : Vec Ideal S128x4096 .i32) (x2 : Vec Ideal S128x32 .f32) (x3 : Vec Ideal S1x128 .f32)
    (p : Fin 1024) (c : Fin 128) (r : Fin 8192) (n : Fin 4096)
    (h0 : ∀ k : Fin 4096, x0 (ix2 p k) = A0 (ix2 r k))
    (h1 : ∀ k : Fin 4096, x1 (ix2 c k) = A1 (ix2 n k))
    (h2 : ∀ g : Fin 32, x2 (ix2 c g) = A2 (ix2 n g))
    (h3 : x3 (ix2 (0 : Fin 1) c) = b (ix1 n)) :
    k0_pay1 (F := Ideal) x0 x1 x2 x3 (ix2 p c) = linearAt A0 A1 A2 b r n := by
  rw [payload_apply, h3]
  unfold linearAt weight
  refine congrArg (· + b (ix1 n)) (Finset.sum_congr rfl fun k _ => ?_)
  rw [h0 k, h1 k, h2 (group k)]

end Cert.KernelIdeal.BodyLinear

end
-- ==== Proof.BlocksLinear.lean ====
/-
  From the kernel's blocks to its whole result array.

  The kernel walks a grid of 8 row blocks by 32 column blocks. At point `t` — row block `t / 32`, column block
  `t % 32` — it is handed rows `1024 · (t / 32) …` of the input, rows `128 · (t % 32) …` of the codes and of the scales,
  entries `128 · (t % 32) …` of the bias (laid out as one row by the host before the call), and writes back the
  [1024, 128] block of the result at that row block and column block. By BodyLinear.lean the block written is the
  layer of QuantLinear.lean read on that block; the 256 blocks tile the [8192, 4096] result, every entry lying in the
  block of the point `(r / 1024) · 32 + n / 128`; so after the run the result array IS the layer of the four
  arguments.
-/
import proofs.«147683_j16028817949314_1_alg».proof.Proof.Gen.KernelIdeal.Value
import proofs.«147683_j16028817949314_1_alg».proof.Proof.BodyLinear
import Idealize.ShloMosaic.Lib.Pipeline.Value
import Idealize.ShloMosaic.Lib.ValueIdx
import Idealize.ShloMosaic.Lib.StableHlo.Run

noncomputable section

open scoped BigOperators

namespace Cert.KernelIdeal.BlocksLinear

open Cert.KernelIdeal Cert.KernelIdeal.Gen Cert.KernelIdeal.Value Cert.KernelIdeal.BodyLinear
open Idealize.ShloMosaic Idealize.ShloMosaic.TcCoe Idealize.SL.Sem Idealize.ShloMosaic.ValueIdx Cert.QuantLinear
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The grid is 8 row blocks by 32 column blocks, walked row block by row block: point `t` is row block `t / 32` and
    column block `t % 32`. Each window's block index at a point, decided over the 256 points. -/
theorem point_blocks : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 ∧ win0_2.index t (1 : Fin 2) = 0
    ∧ win0_3.index t (0 : Fin 2) = 0 ∧ win0_3.index t (1 : Fin 2) = t.val % 32
    ∧ win0_4.index t (0 : Fin 2) = t.val / 32 ∧ win0_4.index t (1 : Fin 2) = t.val % 32 :=
  (by decide +kernel : ∀ t : Fin grid0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 ∧ win0_2.index t (1 : Fin 2) = 0
    ∧ win0_3.index t (0 : Fin 2) = 0 ∧ win0_3.index t (1 : Fin 2) = t.val % 32
    ∧ win0_4.index t (0 : Fin 2) = t.val / 32 ∧ win0_4.index t (1 : Fin 2) = t.val % 32)

/-- The input block at a point is rows `1024 · (t / 32) …` of the input, all features. -/
theorem input_block (c : Dev nD) (t : Fin cfg0.N) (y : S1024x4096.Idx) (i : S8192x4096.Idx)
    (h0 : (i 0).val = t.val / 32 * 1024 + (y 0).val) (h1 : (i 1).val = (y 1).val) :
    (iblk m c 0 t : Vec Ideal S1024x4096 .f32) y = (V m c main_arg0 : S8192x4096.Idx → EReal) i := by
  obtain ⟨e0, e1, -⟩ := point_blocks t
  have he : ((cfg0.win 0).blk t).view.emb y = i := by
    funext a; apply Fin.ext
    match a with
    | ⟨0, _⟩ => show win0_0.index t (0 : Fin 2) * 1024 + 1 * (y 0).val = (i 0).val; rw [e0, h0]; omega
    | ⟨1, _⟩ => show win0_0.index t (1 : Fin 2) * 4096 + 1 * (y 1).val = (i 1).val; rw [e1, h1]; omega
  show V m c main_arg0 (((cfg0.win 0).blk t).view.emb y) = V m c main_arg0 i
  rw [he]

/-- The code block at a point is rows `128 · (t % 32) …` of the codes, all features. -/
theorem code_block (c : Dev nD) (t : Fin cfg0.N) (y : S128x4096.Idx) (i : S4096x4096.Idx)
    (h0 : (i 0).val = t.val % 32 * 128 + (y 0).val) (h1 : (i 1).val = (y 1).val) :
    (iblk m c 1 t : Vec Ideal S128x4096 .i32) y = (V m c main_arg1 : S4096x4096.Idx → BitVec 32) i := by
  obtain ⟨-, -, e0, e1, -⟩ := point_blocks t
  have he : ((cfg0.win 1).blk t).view.emb y = i := by
    funext a; apply Fin.ext
    match a with
    | ⟨0, _⟩ => show win0_1.index t (0 : Fin 2) * 128 + 1 * (y 0).val = (i 0).val; rw [e0, h0]; omega
    | ⟨1, _⟩ => show win0_1.index t (1 : Fin 2) * 4096 + 1 * (y 1).val = (i 1).val; rw [e1, h1]; omega
  show V m c main_arg1 (((cfg0.win 1).blk t).view.emb y) = V m c main_arg1 i
  rw [he]

/-- The scale block at a point is rows `128 · (t % 32) …` of the scales, all groups. -/
theorem scale_block (c : Dev nD) (t : Fin cfg0.N) (y : S128x32.Idx) (i : S4096x32.Idx)
    (h0 : (i 0).val = t.val % 32 * 128 + (y 0).val) (h1 : (i 1).val = (y 1).val) :
    (iblk m c 2 t : Vec Ideal S128x32 .f32) y = (V m c main_arg2 : S4096x32.Idx → EReal) i := by
  obtain ⟨-, -, -, -, e0, e1, -⟩ := point_blocks t
  have he : ((cfg0.win 2).blk t).view.emb y = i := by
    funext a; apply Fin.ext
    match a with
    | ⟨0, _⟩ => show win0_2.index t (0 : Fin 2) * 128 + 1 * (y 0).val = (i 0).val; rw [e0, h0]; omega
    | ⟨1, _⟩ => show win0_2.index t (1 : Fin 2) * 32 + 1 * (y 1).val = (i 1).val; rw [e1, h1]; omega
  show V m c main_arg2 (((cfg0.win 2).blk t).view.emb y) = V m c main_arg2 i
  rw [he]

/-- The bias block at a point is entries `128 · (t % 32) …` of the bias laid out as one row. -/
theorem bias_block (c : Dev nD) (t : Fin cfg0.N) (y : S1x128.Idx) (i : S1x4096.Idx)
    (h0 : (i 0).val = (y 0).val) (h1 : (i 1).val = t.val % 32 * 128 + (y 1).val) :
    (iblk m c 3 t : Vec Ideal S1x128 .f32) y = (V m c main_v0 : S1x4096.Idx → EReal) i := by
  obtain ⟨-, -, -, -, -, -, e0, e1, -⟩ := point_blocks t
  have he : ((cfg0.win 3).blk t).view.emb y = i := by
    funext a; apply Fin.ext
    match a with
    | ⟨0, _⟩ => show win0_3.index t (0 : Fin 2) * 1 + 1 * (y 0).val = (i 0).val; rw [e0, h0]; omega
    | ⟨1, _⟩ => show win0_3.index t (1 : Fin 2) * 128 + 1 * (y 1).val = (i 1).val; rw [e1, h1]; omega
  show V m c main_v0 (((cfg0.win 3).blk t).view.emb y) = V m c main_v0 i
  rw [he]

/-- The one-row bias array the region finds is the bias argument re-laid as [1, 4096]: entry `(0, n)` is `b[n]`. -/
theorem bias_row (c : Dev nD) (n : Fin 4096) :
    (V m c main_v0 : S1x4096.Idx → EReal) (ix2 (0 : Fin 1) n) = (m ((c : Thread nD τ).loc main_arg3) : S4096.Idx → EReal) (ix1 n) := by
  have e : (V m c main_v0 : S1x4096.Idx → EReal)
      = shapeCast S1x4096 (m ((c : Thread nD τ).loc main_arg3) : S4096.Idx → EReal) Facts₀.shapeCasts_S4096_S1x4096 := by
    dsimp only [V, hostOps0]; after_results; rfl
  rw [e]
  exact shapeCast_apply _ _ (ix2 (0 : Fin 1) n) (ix1 n) (by
    rewrite [Shape.rowMajor_val_one, Shape.rowMajor_val_two]
    show n.val = 0 * 4096 + n.val
    omega)

/-! ## What a point writes back -/

/-- The layer of the arrays as the call finds them (the bias still as the argument: `bias_row`). -/
def layer (c : Dev nD) : S8192x4096.Idx → EReal :=
  linear (V m c main_arg0 : S8192x4096.Idx → EReal) (V m c main_arg1 : S4096x4096.Idx → BitVec 32)
    (V m c main_arg2 : S4096x32.Idx → EReal) (m ((c : Thread nD τ).loc main_arg3) : S4096.Idx → EReal)

/-- WHAT POINT `t` WRITES BACK is block `t` of the layer: entry `(p, cc)` of the block is entry
    `(1024 · (t / 32) + p, 128 · (t % 32) + cc)` of the array, and the four loaded blocks are the arrays' rows there. -/
theorem flushed_eq (c : Dev nD) (t : Fin cfg0.N) :
    (dats m 0 c).flushed 4 t = ((cfg0.win 4).blk t).view.read (Elt Ideal) (layer m c) := by
  have ht : t.val < 256 := lt_of_lt_of_eq t.isLt N_0
  obtain ⟨-, -, -, -, -, -, -, -, e0, e1⟩ := point_blocks t
  rw [Value.flushed4]
  unfold out0_4
  rw [View.canon_unit_zero origin]
  simp only [View.ld_unit_zero (S := S1024x4096) origin, View.ld_unit_zero (S := S128x4096) origin,
    View.ld_unit_zero (S := S128x32) origin, View.ld_unit_zero (S := S1x128) origin]
  refine funext fun (j : S1024x128.Idx) => ?_
  obtain ⟨p, cc, rfl⟩ : ∃ (p : Fin 1024) (cc : Fin 128), j = ix2 p cc := ⟨j 0, j 1, eq_ix2 j⟩
  have hp : p.val < 1024 := p.isLt
  have hcc : cc.val < 128 := cc.isLt
  have he : ((cfg0.win 4).blk t).view.emb (ix2 p cc)
      = ix2 (⟨t.val / 32 * 1024 + p.val, by omega⟩ : Fin 8192) (⟨t.val % 32 * 128 + cc.val, by omega⟩ : Fin 4096) := by
    funext a; apply Fin.ext
    match a with
    | ⟨0, _⟩ => show win0_4.index t (0 : Fin 2) * 1024 + 1 * p.val = t.val / 32 * 1024 + p.val; rw [e0]; omega
    | ⟨1, _⟩ => show win0_4.index t (1 : Fin 2) * 128 + 1 * cc.val = t.val % 32 * 128 + cc.val; rw [e1]; omega
  show k0_pay1 (iblk m c 0 t) (iblk m c 1 t) (iblk m c 2 t) (iblk m c 3 t) (ix2 p cc)
    = layer m c (((cfg0.win 4).blk t).view.emb (ix2 p cc))
  rw [he]
  unfold layer
  rw [linear_apply]
  exact payload_of_blocks _ _ _ _ _ _ _ _ p cc _ _
    (fun k => input_block m c t (ix2 p k) (ix2 _ k) rfl rfl)
    (fun k => code_block m c t (ix2 cc k) (ix2 _ k) rfl rfl)
    (fun g => scale_block m c t (ix2 cc g) (ix2 _ g) rfl rfl)
    ((bias_block m c t (ix2 (0 : Fin 1) cc) (ix2 (0 : Fin 1) _) rfl rfl).trans (bias_row m c _))

/-! ## The blocks tile the result -/

/-- An entry of the result is in point `t`'s block iff each coordinate is in the block's range on its axis. -/
theorem mem_block (t : Fin cfg0.N) (i : S8192x4096.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v1).slice (win0_4.rect t)).set ↔ _
  rw [View.set_slice_whole, Rect.mem_set_unit]
  exact Iff.rfl

/-- Every entry `(r, n)` of the result is written back by some point: the point `(r / 1024) · 32 + n / 128`. -/
theorem covered (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  obtain ⟨t, tv⟩ : ∃ t : Fin cfg0.N, t.val = (i 0).val / 1024 * 32 + (i 1).val / 128 :=
    ⟨Fin.cast N_0.symm ⟨(i 0).val / 1024 * 32 + (i 1).val / 128, by omega⟩, rfl⟩
  obtain ⟨-, -, -, -, -, -, -, -, e0, e1⟩ := point_blocks t
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    rw [e0, tv]; omega
  | ⟨1, _⟩ =>
    show win0_4.index t (1 : Fin 2) * 128 ≤ (i 1).val ∧ (i 1).val < win0_4.index t (1 : Fin 2) * 128 + 128
    rw [e1, tv]; omega

/-! ## The result array, and the run -/

/-- THE RESULT ARRAY after the run is the layer of the four arguments as launched. -/
theorem final (c : Dev nD) : (dats m 0 c).arrAt 4 cfg0.N
    = linear (m ((c : Thread nD τ).loc main_arg0) : S8192x4096.Idx → EReal) (m ((c : Thread nD τ).loc main_arg1) : S4096x4096.Idx → BitVec 32)
        (m ((c : Thread nD τ).loc main_arg2) : S4096x32.Idx → EReal) (m ((c : Thread nD τ).loc main_arg3) : S4096.Idx → EReal) := by
  rw [(dats m 0 c).arrAt_eq_of_cover 4 (layer m c) (fun t _ => flushed_eq m c t) covered]
  unfold layer
  rw [V_main_arg0, V_main_arg1, V_main_arg2]

/-- The kernel's run, read: the result at the layer of the arguments, the arguments unchanged. -/
theorem run : θ_run defs (onTc (τ := τ) (main (F := Ideal))) ⟨m, fun _ => 0, ρ⟩ fun r => ∀ c : Dev nD,
      r.2.mem ((c : Thread nD τ).loc main_v1)
        = linear (m ((c : Thread nD τ).loc main_arg0) : S8192x4096.Idx → EReal) (m ((c : Thread nD τ).loc main_arg1) : S4096x4096.Idx → BitVec 32)
            (m ((c : Thread nD τ).loc main_arg2) : S4096x32.Idx → EReal) (m ((c : Thread nD τ).loc main_arg3) : S4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.BlocksLinear

end
-- ==== Proof.lean ====
/-
  A quantised linear layer: the tiled kernel and the plain reference compute one function.

  The weights of 4096 output features over 4096 input features are integer codes `q[n, k]` with one scale per output
  feature and per group of 128 consecutive input features; the dequantised weight is `w[n, k] = q[n, k] · s[n, k / 128]`
  and the layer maps 8192 input rows to `y[r, n] = Σ_k x[r, k] · w[n, k] + b[n]` (QuantLinear.lean).

  The kernel computes it block by block — 1024 rows by 128 output features at a time, dequantising the weight block
  in place and contracting over all 4096 features at once (BodyLinear.lean, BlocksLinear.lean); the reference
  dequantises the whole matrix, transposes it and takes one matrix product (RefLinear.lean). On the extended reals the
  changes of float format are the identity and the integer codes are read exactly, so both results are the same sum,
  summand by summand: the two programs agree with no appeal to any law of arithmetic, and the finiteness of the
  inputs is never used. The idealised kernel is the kernel's own text, so there is nothing to preserve; the kernels'
  frames are the generated ones, and the reference's frame is its generated run with the result forgotten.
-/
import proofs.«147683_j16028817949314_1_alg».proof.Defs
import proofs.«147683_j16028817949314_1_alg».proof.Proof.Gen.Kernel
import proofs.«147683_j16028817949314_1_alg».proof.Proof.Gen.Kernel.Skeleton
import proofs.«147683_j16028817949314_1_alg».proof.Proof.Gen.Kernel.Launch
import proofs.«147683_j16028817949314_1_alg».proof.Proof.Gen.Kernel.Points
import proofs.«147683_j16028817949314_1_alg».proof.Proof.Gen.Kernel.Frame
import proofs.«147683_j16028817949314_1_alg».proof.Proof.Gen.KernelIdeal
import proofs.«147683_j16028817949314_1_alg».proof.Proof.Gen.KernelIdeal.Skeleton
import proofs.«147683_j16028817949314_1_alg».proof.Proof.Gen.KernelIdeal.Launch
import proofs.«147683_j16028817949314_1_alg».proof.Proof.Gen.KernelIdeal.Points
import proofs.«147683_j16028817949314_1_alg».proof.Proof.Gen.KernelIdeal.Frame
import proofs.«147683_j16028817949314_1_alg».proof.Proof.Gen.ReferenceIdeal
import proofs.«147683_j16028817949314_1_alg».proof.Proof.Gen.Pre_finite_inputs
import proofs.«147683_j16028817949314_1_alg».proof.Proof.Gen.KernelIdeal.Value
import proofs.«147683_j16028817949314_1_alg».proof.Proof.Gen.ReferenceIdeal.Run
import proofs.«147683_j16028817949314_1_alg».proof.Proof.Gen.ReferenceIdeal.Read
import proofs.«147683_j16028817949314_1_alg».proof.Proof.QuantLinear
import proofs.«147683_j16028817949314_1_alg».proof.Proof.RefLinear
import proofs.«147683_j16028817949314_1_alg».proof.Proof.BodyLinear
import proofs.«147683_j16028817949314_1_alg».proof.Proof.BlocksLinear
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's eleven host operations run to the end and write none of the arguments. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer of those arguments in their
    result array: the kernel block by block, the reference in one product. -/
theorem algebraic : Cert.algebraic_KernelIdeal_ReferenceIdeal := by
  intro m ρ m' ρ' _ hagree
  refine ⟨_, Cert.KernelIdeal.BlocksLinear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefLinear.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
